-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x512 : Shape := ⟨2, ![256, 512]⟩
abbrev S128x512 : Shape := ⟨2, ![128, 512]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S131072x128 .f32) (main_arg5 : FVec F S256x512 .f32) (main_arg6 : FVec F S128x512 .f32) (main_arg7 : FVec F S512 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S131072x128 .f32 := Host.absf main_arg4
  let main_cst_6 : FVec F S_ .f32 := constant S_ .f32 0x7F800000#32
  let main_v20 : FVec F S131072x128 .f32 := broadcastInDim S131072x128 ![] bcast_S_S131072x128 main_cst_6
  let main_v21 : IVec S131072x128 1 := cmpf .olt main_v19 main_v20
  let main_c_7 : IVec S_ 1 := constantI S_ 1 1#1
  let main_v22 : IVec S_ 1 := (fun x v => Host.reduce IntOp.andi x v reducesTo_S131072x128_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_v33

def fn {F : FTy → Type} [FloatOps F] (main_arg0 : FVec F S131072x128 .f32) (main_arg1 : FVec F S131072x128 .f32) (main_arg2 : FVec F S131072x128 .f32) (main_arg3 : FVec F S131072x128 .f32) (main_arg4 : FVec F S131072x128 .f32) (main_arg5 : FVec F S256x512 .f32) (main_arg6 : FVec F S128x512 .f32) (main_arg7 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_arg5 main_arg6 main_arg7 main_v13 main_v16
-- ==== Kernel.lean ====
abbrev S131072x128 : Shape := ⟨2, ![131072, 128]⟩
abbrev S256x512 : Shape := ⟨2, ![256, 512]⟩
abbrev S128x512 : Shape := ⟨2, ![128, 512]⟩
abbrev S512 : Shape := ⟨1, ![512]⟩
abbrev S1x512 : Shape := ⟨2, ![1, 512]⟩
abbrev S1024x128 : Shape := ⟨2, ![1024, 128]⟩
abbrev S1024x512 : Shape := ⟨2, ![1024, 512]⟩

abbrev nBuf : Space → Nat
  | .hbm => 18
  | .vmem => 21
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S256x512, .f32⟩
  | .hbm, ⟨6, _⟩ => ⟨S128x512, .f32⟩
  | .hbm, ⟨7, _⟩ => ⟨S512, .f32⟩
  | .hbm, ⟨8, _⟩ => ⟨S128x512, .f32⟩
  | .hbm, ⟨9, _⟩ => ⟨S128x512, .bf16⟩
  | .hbm, ⟨10, _⟩ => ⟨S128x512, .f32⟩
  | .hbm, ⟨11, _⟩ => ⟨S128x512, .f32⟩
  | .hbm, ⟨12, _⟩ => ⟨S128x512, .bf16⟩
  | .hbm, ⟨13, _⟩ => ⟨S1x512, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S131072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x512, .bf16⟩
  | .local _ .vmem, ⟨11, _⟩ => ⟨S128x512, .bf16⟩
  | .local _ .vmem, ⟨12, _⟩ => ⟨S1x512, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x512_S128x512_0_0 : S256x512.Slices ![0, 0] S128x512
  bitsLt_bf16_f32 : FTy.bits .bf16 < FTy.bits .f32
  slices_S256x512_S128x512_128_0 : S256x512.Slices ![128, 0] S128x512
  shapeCasts_S512_S1x512 : S512.ShapeCasts S1x512
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S131072x128.size a
  hwx0_1 : ∀ i : grid0.Coords, EltTy.bits .f32 = 32 ∨ (Rect.block (s := S131072x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S131072x128.size a
  hwx0_2 : ∀ i : grid0.Coords, EltTy.bits .f32 = 32 ∨ (Rect.block (s := S131072x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S131072x128.size a
  hwx0_4 : ∀ i : grid0.Coords, EltTy.bits .f32 = 32 ∨ (Rect.block (s := S131072x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .bf16 = 32 ∨ (Rect.block (s := S128x512) S128x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S131072x128.size a
  hwx0_8 : ∀ i : grid0.Coords, EltTy.bits .f32 = 32 ∨ (Rect.block (s := S131072x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S131072x128.size a
  hwx0_9 : ∀ i : grid0.Coords, EltTy.bits .f32 = 32 ∨ (Rect.block (s := S131072x128) S1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S131072x128.size a
  hwx0_10 : ∀ i : grid0.Coords, EltTy.bits .f32 = 32 ∨ (Rect.block (s := S131072x128) S1024x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S131072x128.size a
  hwx0_11 : ∀ i : grid0.Coords, EltTy.bits .f32 = 32 ∨ (Rect.block (s := S131072x128) S1024x128.size (cc0_transform_11 i) (hinb0_11 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1024x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_3) S1024x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x512 : Shape := ⟨2, ![256, 512]⟩
abbrev S128x512 : Shape := ⟨2, ![128, 512]⟩
abbrev S512 : Shape := ⟨1, ![512]⟩
abbrev S131072x256 : Shape := ⟨2, ![131072, 256]⟩
abbrev S131072x512 : Shape := ⟨2, ![131072, 512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S256x512, .f32⟩
  | .hbm, ⟨6, _⟩ => ⟨S128x512, .f32⟩
  | .hbm, ⟨7, _⟩ => ⟨S512, .f32⟩
  | .hbm, ⟨8, _⟩ => ⟨S131072x256, .f32⟩
  | .hbm, ⟨9, _⟩ => ⟨S131072x512, .f32⟩
  | .hbm, ⟨10, _⟩ => ⟨S131072x512, .f32⟩
  | .hbm, ⟨11, _⟩ => ⟨S131072x512, .f32⟩
  | .hbm, ⟨12, _⟩ => ⟨S1x512, .f32⟩
  | .hbm, ⟨13, _⟩ => ⟨S131072x512, .f32⟩
  | .hbm, ⟨14, _⟩ => ⟨S131072x512, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S_, .f32⟩
  | .hbm, ⟨23, _⟩ => ⟨S131072x128, .f32⟩
  | .hbm, ⟨24, _⟩ => ⟨S131072x128, .f32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S_, .f32⟩
  | .hbm, ⟨32, _⟩ => ⟨S131072x128, .f32⟩
  | .hbm, ⟨33, _⟩ => ⟨S131072x128, .f32⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x256_S256x512_S131072x512_1_0_0_1_n_n_wf : DotDims.WF S131072x256 S256x512 S131072x512 [1] [0] [0] [1] [] []
  dot_S131072x128_S128x512_S131072x512_1_0_0_1_n_n_wf : DotDims.WF S131072x128 S128x512 S131072x512 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.KPay.lean ====
/-
  The kernel body's gate block.  One grid point holds 1024 batch rows.  From its blocks of x and h (1024 × 128), the two
  weight matrices it is handed (128 × 512 each) and the bias row (1 × 512), the body forms the 1024 × 512 gate block
      g(p, q) = Σ_k x(p,k)·wx(k,q) + Σ_k h(p,k)·wh(k,q) + b(0,q):
  two matrix products onto zero, added, plus the bias row repeated down the rows.  The narrowing of the operands to
  a 16-bit format before the products is the identity on exact values.
-/
import proofs.«138445_j86500641341529_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic

namespace Cert.KernelIdeal.Hand

open Cert.KernelIdeal Cert.KernelIdeal.Gen

/-! The product's operand indices: the left operand is read at (row of the result, k), the right at (k, column). -/

theorem lhs0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem rhs0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem rhs1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- A 1024 × 128 by 128 × 512 product onto zero, at (p, q): the sum over k of the row's entry times the column's. -/
theorem product_apply (x : FVec Ideal S1024x128 .bf16) (w : FVec Ideal S128x512 .bf16) (p : Fin 1024) (q : Fin 512) :
    FloatOps.matmul dot_S1024x128_S128x512_S1024x512_1_0_0_1_n_n none x w (constant S1024x512 .f32 0x00000000#32) (ValueIdx.ix2 p q)
      = ∑ k : Fin 128, x (ValueIdx.ix2 p k) * w (ValueIdx.ix2 k q) := by
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ValueIdx.ix2 p q) ((ValueIdx.contrEquiv1 dot_S1024x128_S128x512_S1024x512_1_0_0_1_n_n 128 rfl rfl).symm k) = ValueIdx.ix2 p k :=
    funext fun a => Fin.ext (by
      match a with
      | ⟨0, _⟩ => exact lhs0 _ _
      | ⟨1, _⟩ => exact (lhs1 _ _).trans hk)
  have er : dot_S1024x128_S128x512_S1024x512_1_0_0_1_n_n.rhsIdx (ValueIdx.ix2 p q) ((ValueIdx.contrEquiv1 dot_S1024x128_S128x512_S1024x512_1_0_0_1_n_n 128 rfl rfl).symm k) = ValueIdx.ix2 k q :=
    funext fun a => Fin.ext (by
      match a with
      | ⟨0, _⟩ => exact (rhs0 _ _).trans hk
      | ⟨1, _⟩ => exact rhs1 _ _)
  rw [el, er]

/-- The bias row repeated down the 1024 rows, at (p, q), is the row's entry q. -/
theorem bias_apply (b : FVec Ideal S1x512 .f32) (p : Fin 1024) (q : Fin 512) :
    broadcastTo S1024x512 b broadcasts_S1x512_S1024x512 (ValueIdx.ix2 p q) = b (ValueIdx.ix2 (0 : Fin 1) q) :=
  broadcastTo_apply b broadcasts_S1x512_S1024x512 (ValueIdx.ix2 p q) (ValueIdx.ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- THE GATE BLOCK at (p, q). -/
theorem gate_block (x h : FVec Ideal S1024x128 .f32) (wx wh : FVec Ideal S128x512 .bf16) (b : FVec Ideal S1x512 .f32)
    (p : Fin 1024) (q : Fin 512) :
    k0_pay2 (F := Ideal) x h wx wh b (ValueIdx.ix2 p q)
      = ((∑ k : Fin 128, x (ValueIdx.ix2 p k) * wx (ValueIdx.ix2 k q))
          + ∑ k : Fin 128, h (ValueIdx.ix2 p k) * wh (ValueIdx.ix2 k q)) + b (ValueIdx.ix2 (0 : Fin 1) q) := by
  unfold k0_pay2
  rw [shapeCast_self, shapeCast_self, shapeCast_self]
  show (FloatOps.matmul dot_S1024x128_S128x512_S1024x512_1_0_0_1_n_n none (truncf .bf16 x bitsLt_bf16_f32) wx (constant S1024x512 .f32 0x00000000#32) (ValueIdx.ix2 p q)
      + FloatOps.matmul dot_S1024x128_S128x512_S1024x512_1_0_0_1_n_n none (truncf .bf16 h bitsLt_bf16_f32) wh (constant S1024x512 .f32 0x00000000#32) (ValueIdx.ix2 p q))
      + broadcastTo S1024x512 b broadcasts_S1x512_S1024x512 (ValueIdx.ix2 p q) = _
  rw [product_apply, product_apply, bias_apply]
  rfl

end Cert.KernelIdeal.Hand

end
-- ==== Proof.Cell.lean ====
/-
  The mathematics of one sLSTM step, stated without either program.

  Gate pre-activations.  For a batch row i and a gate column j (0 ≤ j < 512) the pre-activation is
      g(i, j) = Σ_k x(i,k)·W(k,j) + Σ_k h(i,k)·W(128+k, j) + Σ_k h(i,k)·r(k,j) + b(j).
  One program contracts h once, against the pre-added matrix W(128+k, j) + r(k, j) (the form gateFolded);
  the other contracts the joined row (x(i,·), h(i,·)) of length 256 against all of W and then adds the
  separate product h·r (the form gateJoined).  The two agree when h, W and r hold real numbers: a sum over 256
  positions splits into its two halves (true of any commutative sum, finite or not), and h·(w + r) = h·w + h·r
  termwise (true for reals; on the extended reals it fails, for instance at w = +∞, r = −∞, h < 0, which is why
  the entries must be finite).

  The cell.  With the four gate columns of an element read at j, j+128, j+256, j+384 as gi, gf, gz, go, and the
  carried state c, n, m of that element:
      s   = max (log σ(gf) + m, log (exp gi))                    the stabiliser (new m)
      i'  = exp (log (exp gi) − s)
      f'  = exp (log σ(gf) + s − s)
      c'  = f'·c + i'·tanh gz                                     new c
      n'  = f'·n + i'                                             new n
      h'  = σ(go) · tanh (c' / n')                                new h
  where σ x = 1 / (1 + exp (−x)).  Every operation is the exact one on the extended reals.
-/
import Idealize.ShloMosaic.PureOps.Ideal
import Idealize.ShloMosaic.PureOps.Ideal.Laws
import Idealize.ShloMosaic.Lib.ValueIdx

noncomputable section

open Idealize.ShloMosaic

namespace Cert.Slstm

/-! ## Shapes and coordinates -/

abbrev Rows : Shape := ⟨2, ![131072, 128]⟩
abbrev Joined : Shape := ⟨2, ![131072, 256]⟩
abbrev Gates : Shape := ⟨2, ![131072, 512]⟩
abbrev WIn : Shape := ⟨2, ![256, 512]⟩
abbrev WRec : Shape := ⟨2, ![128, 512]⟩
abbrev Bias : Shape := ⟨1, ![512]⟩

/-- Element (i, j) of a batch-by-128 array. -/
abbrev rc (i : Fin 131072) (j : Fin 128) : Rows.Idx := ValueIdx.ix2 i j
/-- Element (i, j) of the batch-by-512 gate array. -/
abbrev gc (i : Fin 131072) (j : Fin 512) : Gates.Idx := ValueIdx.ix2 i j

/-- The gate column of element column q that lies off columns to the right (off = 0, 128, 256, 384). -/
abbrev gateCol (off : Nat) (hoff : off + 128 ≤ 512) (q : Fin 128) : Fin 512 := ⟨q.val + off, by have := q.isLt; omega⟩

/-! ## The cell on one element -/

/-- The logistic function spelled with a quotient, as a host computes it, is the one-operation logistic. -/
theorem logistic_spelled (one x : Ideal .f32) (h1 : one = (1 : EReal)) :
    FloatOps.hostDivf one (FloatOps.addf one (FloatOps.hostUnary .exp (FloatOps.hostNegf x))) = FloatOps.logistic x := by
  subst h1; rfl

/-- The stabiliser: the larger of log σ(gf) + m and log (exp gi). -/
def stab (gi gf mm : Ideal .f32) : Ideal .f32 :=
  FloatOps.maximumf (FloatOps.addf (FloatOps.log (FloatOps.logistic gf)) mm) (FloatOps.log (FloatOps.exp gi))

/-- The stabilised input weight exp (log (exp gi) − s). -/
def inW (gi gf mm : Ideal .f32) : Ideal .f32 :=
  FloatOps.exp (FloatOps.subf (FloatOps.log (FloatOps.exp gi)) (stab gi gf mm))

/-- The stabilised forget weight exp (log σ(gf) + s − s). -/
def fgW (gi gf mm : Ideal .f32) : Ideal .f32 :=
  FloatOps.exp (FloatOps.subf (FloatOps.addf (FloatOps.log (FloatOps.logistic gf)) (stab gi gf mm)) (stab gi gf mm))

/-- The new cell state f'·c + i'·tanh gz. -/
def cNew (gi gf gz mm cc : Ideal .f32) : Ideal .f32 :=
  FloatOps.addf (FloatOps.mulf (fgW gi gf mm) cc) (FloatOps.mulf (inW gi gf mm) (FloatOps.tanh gz))

/-- The new normaliser f'·n + i'. -/
def nNew (gi gf mm nn : Ideal .f32) : Ideal .f32 :=
  FloatOps.addf (FloatOps.mulf (fgW gi gf mm) nn) (inW gi gf mm)

/-- The new hidden state σ(go)·tanh (c' / n'). -/
def hNew (gi gf gz go mm cc nn : Ideal .f32) : Ideal .f32 :=
  FloatOps.mulf (FloatOps.logistic go) (FloatOps.tanh (FloatOps.divf (cNew gi gf gz mm cc) (nNew gi gf mm nn)))

/-! ## The cell on whole arrays, over any gate array -/

section arrays
variable (g : Gates.Idx → Ideal .f32) (mm cc nn : Rows.Idx → Ideal .f32)

/-- The four gate pre-activations of element (i, q). -/
abbrev gI (i : Fin 131072) (q : Fin 128) : Ideal .f32 := g (gc i (gateCol 0 (by omega) q))
abbrev gF (i : Fin 131072) (q : Fin 128) : Ideal .f32 := g (gc i (gateCol 128 (by omega) q))
abbrev gZ (i : Fin 131072) (q : Fin 128) : Ideal .f32 := g (gc i (gateCol 256 (by omega) q))
abbrev gO (i : Fin 131072) (q : Fin 128) : Ideal .f32 := g (gc i (gateCol 384 (by omega) q))

def arrM : Rows.Idx → Ideal .f32 := fun e => stab (gI g (e 0) (e 1)) (gF g (e 0) (e 1)) (mm e)
def arrC : Rows.Idx → Ideal .f32 := fun e => cNew (gI g (e 0) (e 1)) (gF g (e 0) (e 1)) (gZ g (e 0) (e 1)) (mm e) (cc e)
def arrN : Rows.Idx → Ideal .f32 := fun e => nNew (gI g (e 0) (e 1)) (gF g (e 0) (e 1)) (mm e) (nn e)
def arrH : Rows.Idx → Ideal .f32 := fun e =>
  hNew (gI g (e 0) (e 1)) (gF g (e 0) (e 1)) (gZ g (e 0) (e 1)) (gO g (e 0) (e 1)) (mm e) (cc e) (nn e)
end arrays

/-! ## The two spellings of the gate pre-activations -/

section gates
variable (X Hh : Rows.Idx → EReal) (W : WIn.Idx → EReal) (R : WRec.Idx → EReal) (Bv : Bias.Idx → EReal)

/-- Row k of the input half of W (rows 0 … 127) and of its recurrent half (rows 128 … 255). -/
abbrev wTop (k : Fin 128) (j : Fin 512) : WIn.Idx := ValueIdx.ix2 (⟨k.val, by have := k.isLt; omega⟩ : Fin 256) j
abbrev wBot (k : Fin 128) (j : Fin 512) : WIn.Idx := ValueIdx.ix2 (⟨k.val + 128, by have := k.isLt; omega⟩ : Fin 256) j

/-- h contracted once, against W's recurrent half with r already added. -/
def gateFolded : Gates.Idx → EReal := fun j =>
  ((∑ k : Fin 128, X (rc (j 0) k) * W (wTop k (j 1)))
    + ∑ k : Fin 128, Hh (rc (j 0) k) * (W (wBot k (j 1)) + R (ValueIdx.ix2 k (j 1)))) + Bv (ValueIdx.ix1 (j 1))

/-- The row (x(i,·), h(i,·)) of length 256. -/
def joined : Joined.Idx → EReal := fun e =>
  if h : (e 1).val < 128 then X (rc (e 0) ⟨(e 1).val, h⟩)
  else Hh (rc (e 0) ⟨(e 1).val - 128, by have := ValueIdx.idx2_lt1 e; omega⟩)

/-- The joined row against all of W, then the separate product h·r. -/
def gateJoined : Gates.Idx → EReal := fun j =>
  ((∑ k : Fin 256, joined X Hh (ValueIdx.ix2 (j 0) k) * W (ValueIdx.ix2 k (j 1)))
    + ∑ k : Fin 128, Hh (rc (j 0) k) * R (ValueIdx.ix2 k (j 1))) + Bv (ValueIdx.ix1 (j 1))

/-- A sum over the 256 joined positions is the sum over x's 128 plus the sum over h's 128. -/
theorem joined_sum (i : Fin 131072) (j : Fin 512) :
    (∑ k : Fin 256, joined X Hh (ValueIdx.ix2 i k) * W (ValueIdx.ix2 k j))
      = (∑ k : Fin 128, X (rc i k) * W (wTop k j)) + ∑ k : Fin 128, Hh (rc i k) * W (wBot k j) := by
  have split := Fin.sum_univ_add (a := 128) (b := 128)
    (fun k : Fin (128 + 128) => joined X Hh (ValueIdx.ix2 i (k : Fin 256)) * W (ValueIdx.ix2 (k : Fin 256) j))
  refine split.trans ?_
  congr 1

/-- THE LAW that joins the two programs: on real entries of h, W and r the two spellings agree. -/
theorem gateJoined_eq_gateFolded
    (hH : ∀ e, ∃ a : ℝ, Hh e = (a : EReal)) (hW : ∀ e, ∃ a : ℝ, W e = (a : EReal)) (hR : ∀ e, ∃ a : ℝ, R e = (a : EReal)) :
    gateJoined X Hh W R Bv = gateFolded X Hh W R Bv := by
  funext j
  unfold gateJoined gateFolded
  congr 1
  rw [joined_sum X Hh W (j 0) (j 1), add_assoc]
  congr 1
  rw [← Finset.sum_add_distrib]
  refine Finset.sum_congr rfl fun k _ => ?_
  obtain ⟨a, ha⟩ := hH (rc (j 0) k)
  obtain ⟨w, hw⟩ := hW (wBot k (j 1))
  obtain ⟨r, hr⟩ := hR (ValueIdx.ix2 k (j 1))
  rw [ha, hw, hr, ← EReal.coe_mul, ← EReal.coe_mul, ← EReal.coe_add, ← EReal.coe_add, ← EReal.coe_mul, mul_add]
end gates

end Cert.Slstm

end
-- ==== Proof.KCell.lean ====
/-
  The kernel body's four stored blocks, element by element, are the cell applied to the gate block.  The body cuts the
  1024 × 512 gate block into its four 1024 × 128 column slices (columns 0–127 the input gate, 128–255 the forget gate,
  256–383 the cell-input gate, 384–511 the output gate) and then works element by element; so the value stored at
  (p, k) is the cell of the gate block's entries (p, k), (p, k+128), (p, k+256), (p, k+384) and of the carried state
  at (p, k).
-/
import proofs.«138445_j86500641341529_1_alg».proof.Proof.Gen.KernelIdeal.Skeleton
import proofs.«138445_j86500641341529_1_alg».proof.Proof.Cell
import Idealize.ShloMosaic.Lib.Pipeline.Value
import Idealize.ShloMosaic.Lib.ValueIdx

noncomputable section

open Idealize.ShloMosaic

namespace Cert.KernelIdeal.Hand

open Cert.KernelIdeal Cert.KernelIdeal.Gen Cert.Slstm

/-! ## A column slice of the gate block at (p, k) is the block at (p, k + offset) -/

section slices
variable (g : FVec Ideal S1024x512 .f32) (p : Fin 1024) (k : Fin 128)

theorem sliceI : extractStridedSlice S1024x128 ![0, 0] g slices_S1024x512_o0_0_S1024x128 (ValueIdx.ix2 p k)
    = g (ValueIdx.ix2 p (gateCol 0 (by omega) k)) :=
  extractStridedSlice_apply ![0, 0] g slices_S1024x512_o0_0_S1024x128 (ValueIdx.ix2 p k) (ValueIdx.ix2 p (gateCol 0 (by omega) k))
    (fun a => match a with
      | ⟨0, _⟩ => by show p.val = 0 + p.val; omega
      | ⟨1, _⟩ => by show k.val + 0 = 0 + k.val; omega)

theorem sliceF : extractStridedSlice S1024x128 ![0, 128] g slices_S1024x512_o0_128_S1024x128 (ValueIdx.ix2 p k)
    = g (ValueIdx.ix2 p (gateCol 128 (by omega) k)) :=
  extractStridedSlice_apply ![0, 128] g slices_S1024x512_o0_128_S1024x128 (ValueIdx.ix2 p k) (ValueIdx.ix2 p (gateCol 128 (by omega) k))
    (fun a => match a with
      | ⟨0, _⟩ => by show p.val = 0 + p.val; omega
      | ⟨1, _⟩ => by show k.val + 128 = 128 + k.val; omega)

theorem sliceZ : extractStridedSlice S1024x128 ![0, 256] g slices_S1024x512_o0_256_S1024x128 (ValueIdx.ix2 p k)
    = g (ValueIdx.ix2 p (gateCol 256 (by omega) k)) :=
  extractStridedSlice_apply ![0, 256] g slices_S1024x512_o0_256_S1024x128 (ValueIdx.ix2 p k) (ValueIdx.ix2 p (gateCol 256 (by omega) k))
    (fun a => match a with
      | ⟨0, _⟩ => by show p.val = 0 + p.val; omega
      | ⟨1, _⟩ => by show k.val + 256 = 256 + k.val; omega)

theorem sliceO : extractStridedSlice S1024x128 ![0, 384] g slices_S1024x512_o0_384_S1024x128 (ValueIdx.ix2 p k)
    = g (ValueIdx.ix2 p (gateCol 384 (by omega) k)) :=
  extractStridedSlice_apply ![0, 384] g slices_S1024x512_o0_384_S1024x128 (ValueIdx.ix2 p k) (ValueIdx.ix2 p (gateCol 384 (by omega) k))
    (fun a => match a with
      | ⟨0, _⟩ => by show p.val = 0 + p.val; omega
      | ⟨1, _⟩ => by show k.val + 384 = 384 + k.val; omega)
end slices

/-! ## The four stored blocks -/

section blocks
variable (x h cc nn mm : FVec Ideal S1024x128 .f32) (wx wh : FVec Ideal S128x512 .bf16) (b : FVec Ideal S1x512 .f32)
variable (p : Fin 1024) (k : Fin 128)

/-- The gate block's entry in row p at column k + offset. -/
abbrev gAt (off : Nat) (hoff : off + 128 ≤ 512) : Ideal .f32 :=
  k0_pay2 (F := Ideal) x h wx wh b (ValueIdx.ix2 p (gateCol off hoff k))

/-- The block stored as the new stabiliser m. -/
theorem blockM : k0_pay6 (F := Ideal) x h mm wx wh b (ValueIdx.ix2 p k)
    = stab (gAt x h wx wh b p k 0 (by omega)) (gAt x h wx wh b p k 128 (by omega)) (mm (ValueIdx.ix2 p k)) := by
  show stab (extractStridedSlice S1024x128 ![0, 0] (k0_pay2 (F := Ideal) x h wx wh b) slices_S1024x512_o0_0_S1024x128 (ValueIdx.ix2 p k))
      (extractStridedSlice S1024x128 ![0, 128] (k0_pay2 (F := Ideal) x h wx wh b) slices_S1024x512_o0_128_S1024x128 (ValueIdx.ix2 p k))
      (mm (ValueIdx.ix2 p k)) = _
  rw [sliceI, sliceF]

/-- The block stored as the new cell state c. -/
theorem blockC : k0_pay9 (F := Ideal) x h cc mm wx wh b (ValueIdx.ix2 p k)
    = cNew (gAt x h wx wh b p k 0 (by omega)) (gAt x h wx wh b p k 128 (by omega)) (gAt x h wx wh b p k 256 (by omega))
        (mm (ValueIdx.ix2 p k)) (cc (ValueIdx.ix2 p k)) := by
  show cNew (extractStridedSlice S1024x128 ![0, 0] (k0_pay2 (F := Ideal) x h wx wh b) slices_S1024x512_o0_0_S1024x128 (ValueIdx.ix2 p k))
      (extractStridedSlice S1024x128 ![0, 128] (k0_pay2 (F := Ideal) x h wx wh b) slices_S1024x512_o0_128_S1024x128 (ValueIdx.ix2 p k))
      (extractStridedSlice S1024x128 ![0, 256] (k0_pay2 (F := Ideal) x h wx wh b) slices_S1024x512_o0_256_S1024x128 (ValueIdx.ix2 p k))
      (mm (ValueIdx.ix2 p k)) (cc (ValueIdx.ix2 p k)) = _
  rw [sliceI, sliceF, sliceZ]

/-- The block stored as the new normaliser n. -/
theorem blockN : k0_pay10 (F := Ideal) x h nn mm wx wh b (ValueIdx.ix2 p k)
    = nNew (gAt x h wx wh b p k 0 (by omega)) (gAt x h wx wh b p k 128 (by omega)) (mm (ValueIdx.ix2 p k)) (nn (ValueIdx.ix2 p k)) := by
  show nNew (extractStridedSlice S1024x128 ![0, 0] (k0_pay2 (F := Ideal) x h wx wh b) slices_S1024x512_o0_0_S1024x128 (ValueIdx.ix2 p k))
      (extractStridedSlice S1024x128 ![0, 128] (k0_pay2 (F := Ideal) x h wx wh b) slices_S1024x512_o0_128_S1024x128 (ValueIdx.ix2 p k))
      (mm (ValueIdx.ix2 p k)) (nn (ValueIdx.ix2 p k)) = _
  rw [sliceI, sliceF]

/-- The block stored as the new hidden state h. -/
theorem blockH : k0_pay1 (F := Ideal) (k0_pay3 (F := Ideal) x h wx wh b) (k0_pay11 (F := Ideal) x h cc nn mm wx wh b) (ValueIdx.ix2 p k)
    = hNew (gAt x h wx wh b p k 0 (by omega)) (gAt x h wx wh b p k 128 (by omega)) (gAt x h wx wh b p k 256 (by omega))
        (gAt x h wx wh b p k 384 (by omega)) (mm (ValueIdx.ix2 p k)) (cc (ValueIdx.ix2 p k)) (nn (ValueIdx.ix2 p k)) := by
  show hNew (extractStridedSlice S1024x128 ![0, 0] (k0_pay2 (F := Ideal) x h wx wh b) slices_S1024x512_o0_0_S1024x128 (ValueIdx.ix2 p k))
      (extractStridedSlice S1024x128 ![0, 128] (k0_pay2 (F := Ideal) x h wx wh b) slices_S1024x512_o0_128_S1024x128 (ValueIdx.ix2 p k))
      (extractStridedSlice S1024x128 ![0, 256] (k0_pay2 (F := Ideal) x h wx wh b) slices_S1024x512_o0_256_S1024x128 (ValueIdx.ix2 p k))
      (extractStridedSlice S1024x128 ![0, 384] (k0_pay2 (F := Ideal) x h wx wh b) slices_S1024x512_o0_384_S1024x128 (ValueIdx.ix2 p k))
      (mm (ValueIdx.ix2 p k)) (cc (ValueIdx.ix2 p k)) (nn (ValueIdx.ix2 p k)) = _
  rw [sliceI, sliceF, sliceZ, sliceO]
end blocks

end Cert.KernelIdeal.Hand

end
-- ==== Proof.KWin.lean ====
/-
  What each window's block holds at grid point t.  The batch is cut into 128 blocks of 1024 rows: point t works on rows
  1024·t … 1024·t + 1023 of x, h, c, n, m and writes the same rows of the four results.  The two weight windows and the
  bias window are one whole block, the same at every point, of arrays computed before the launch:
    wx(k, q) = W(k, q)                     (the top 128 rows of W),
    wh(k, q) = W(128 + k, q) + r(k, q)     (the bottom 128 rows of W with r added),
    b(0, q)  = b(q)                        (the bias as a one-row matrix).
  Narrowing wx and wh to a 16-bit format is the identity on exact values.
-/
import proofs.«138445_j86500641341529_1_alg».proof.Proof.Gen.KernelIdeal.Frame
import proofs.«138445_j86500641341529_1_alg».proof.Proof.Cell
import Idealize.ShloMosaic.Lib.Pipeline.Value
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen Cert.Slstm

variable (m : (ℓ : Loc nD τ sig) → Buf (Elt Ideal) ℓ)

/-! ## The argument arrays, as arrays of extended reals -/

abbrev aX (c : Dev nD) : Rows.Idx → EReal := m ((c : Thread nD τ).loc main_arg0)
abbrev aH (c : Dev nD) : Rows.Idx → EReal := m ((c : Thread nD τ).loc main_arg1)
abbrev aC (c : Dev nD) : Rows.Idx → EReal := m ((c : Thread nD τ).loc main_arg2)
abbrev aN (c : Dev nD) : Rows.Idx → EReal := m ((c : Thread nD τ).loc main_arg3)
abbrev aM (c : Dev nD) : Rows.Idx → EReal := m ((c : Thread nD τ).loc main_arg4)
abbrev aW (c : Dev nD) : WIn.Idx → EReal := m ((c : Thread nD τ).loc main_arg5)
abbrev aR (c : Dev nD) : WRec.Idx → EReal := m ((c : Thread nD τ).loc main_arg6)
abbrev aB (c : Dev nD) : Bias.Idx → EReal := m ((c : Thread nD τ).loc main_arg7)

/-! ## Which block each point takes -/

theorem idx_w0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_w2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_w3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_w4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_w8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_w9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_w10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem idx_w11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_w5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_w7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The batch row that row p of point t's block is. -/
abbrev row (t : Fin cfg0.N) (p : Fin 1024) : Fin 131072 :=
  ⟨t.val * 1024 + p.val, by have hN : cfg0.N = 128 := N_0; have := t.isLt; have := p.isLt; omega⟩

/-! ## The row windows -/

/-- Block t of window 0: rows 1024·t … 1024·t + 1023 of its argument array. -/
theorem blk0 (c : Dev nD) (t : Fin cfg0.N) (p : Fin 1024) (k : Fin 128) :
    (iblk m c 0 t : FVec Ideal S1024x128 .f32) (ValueIdx.ix2 p k) = aX m c (rc (row t p) k) := by
  obtain ⟨h0, h1⟩ := idx_w0 t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [h0]; omega
  | ⟨1, _⟩ => show win0_0.index t (1 : Fin 2) * 128 + 1 * k.val = k.val; rw [h1]; omega

/-- Block t of window 1: rows 1024·t … 1024·t + 1023 of its argument array. -/
theorem blk1 (c : Dev nD) (t : Fin cfg0.N) (p : Fin 1024) (k : Fin 128) :
    (iblk m c 1 t : FVec Ideal S1024x128 .f32) (ValueIdx.ix2 p k) = aH m c (rc (row t p) k) := by
  obtain ⟨h0, h1⟩ := idx_w1 t
  unfold iblk
  rw [View.read_apply]
  show V m c main_arg1 _ = _
  rw [V_main_arg1]
  congr 1
  funext a
  apply Fin.ext
  match a with
  | ⟨0, _⟩ => show win0_1.index t (0 : Fin 2) * 1024 + 1 * p.val = t.val * 1024 + p.val; rw [h0]; omega
  | ⟨1, _⟩ => show win0_1.index t (1 : Fin 2) * 128 + 1 * k.val = k.val; rw [h1]; omega

/-- Block t of window 2: rows 1024·t … 1024·t + 1023 of its argument array. -/
theorem blk2 (c : Dev nD) (t : Fin cfg0.N) (p : Fin 1024) (k : Fin 128) :
    (iblk m c 2 t : FVec Ideal S1024x128 .f32) (ValueIdx.ix2 p k) = aC m c (rc (row t p) k) := by
  obtain ⟨h0, h1⟩ := idx_w2 t
  unfold iblk
  rw [View.read_apply]
  show V m c main_arg2 _ = _
  rw [V_main_arg2]
  congr 1
  funext a
  apply Fin.ext
  match a with
  | ⟨0, _⟩ => show win0_2.index t (0 : Fin 2) * 1024 + 1 * p.val = t.val * 1024 + p.val; rw [h0]; omega
  | ⟨1, _⟩ => show win0_2.index t (1 : Fin 2) * 128 + 1 * k.val = k.val; rw [h1]; omega

/-- Block t of window 3: rows 1024·t … 1024·t + 1023 of its argument array. -/
theorem blk3 (c : Dev nD) (t : Fin cfg0.N) (p : Fin 1024) (k : Fin 128) :
    (iblk m c 3 t : FVec Ideal S1024x128 .f32) (ValueIdx.ix2 p k) = aN m c (rc (row t p) k) := by
  obtain ⟨h0, h1⟩ := idx_w3 t
  unfold iblk
  rw [View.read_apply]
  show V m c main_arg3 _ = _
  rw [V_main_arg3]
  congr 1
  funext a
  apply Fin.ext
  match a with
  | ⟨0, _⟩ => show win0_3.index t (0 : Fin 2) * 1024 + 1 * p.val = t.val * 1024 + p.val; rw [h0]; omega
  | ⟨1, _⟩ => show win0_3.index t (1 : Fin 2) * 128 + 1 * k.val = k.val; rw [h1]; omega

/-- Block t of window 4: rows 1024·t … 1024·t + 1023 of its argument array. -/
theorem blk4 (c : Dev nD) (t : Fin cfg0.N) (p : Fin 1024) (k : Fin 128) :
    (iblk m c 4 t : FVec Ideal S1024x128 .f32) (ValueIdx.ix2 p k) = aM m c (rc (row t p) k) := by
  obtain ⟨h0, h1⟩ := idx_w4 t
  unfold iblk
  rw [View.read_apply]
  show V m c main_arg4 _ = _
  rw [V_main_arg4]
  congr 1
  funext a
  apply Fin.ext
  match a with
  | ⟨0, _⟩ => show win0_4.index t (0 : Fin 2) * 1024 + 1 * p.val = t.val * 1024 + p.val; rw [h0]; omega
  | ⟨1, _⟩ => show win0_4.index t (1 : Fin 2) * 128 + 1 * k.val = k.val; rw [h1]; omega

/-! ## The arrays computed before the launch -/

theorem V_wx (c : Dev nD) : (V m c main_v1 : S128x512.Idx → Ideal .bf16)
    = truncf (F := Ideal) .bf16 (extractStridedSlice S128x512 ![0, 0] (m ((c : Thread nD τ).loc main_arg5)) slices_S256x512_S128x512_0_0) bitsLt_bf16_f32 := by
  dsimp only [V, hostOps0]; after_results

theorem V_wh (c : Dev nD) : (V m c main_v4 : S128x512.Idx → Ideal .bf16)
    = truncf (F := Ideal) .bf16 (addf (F := Ideal) (extractStridedSlice S128x512 ![128, 0] (m ((c : Thread nD τ).loc main_arg5)) slices_S256x512_S128x512_128_0) (m ((c : Thread nD τ).loc main_arg6))) bitsLt_bf16_f32 := by
  dsimp only [V, hostOps0]; after_results

theorem V_b (c : Dev nD) : (V m c main_v5 : S1x512.Idx → Ideal .f32)
    = shapeCast S1x512 (m ((c : Thread nD τ).loc main_arg7)) shapeCasts_S512_S1x512 := by
  dsimp only [V, hostOps0]; after_results; rfl

/-- The input-weight window: entry (k, q) is W(k, q). -/
theorem blk5 (c : Dev nD) (t : Fin cfg0.N) (k : Fin 128) (q : Fin 512) :
    (iblk m c 5 t : FVec Ideal S128x512 .bf16) (ValueIdx.ix2 k q) = aW m c (wTop k q) := by
  obtain ⟨h0, h1⟩ := idx_w5 t
  unfold iblk
  rw [View.read_apply]
  show (V m c main_v1 : S128x512.Idx → Ideal .bf16) _ = _
  rw [V_wx]
  refine (extractStridedSlice_apply ![0, 0] _ slices_S256x512_S128x512_0_0 _ (wTop k q) (fun a => ?_))
  match a with
  | ⟨0, _⟩ => show k.val = 0 + (win0_5.index t (0 : Fin 2) * 128 + 1 * k.val); rw [h0]; omega
  | ⟨1, _⟩ => show q.val = 0 + (win0_5.index t (1 : Fin 2) * 512 + 1 * q.val); rw [h1]; omega

/-- The recurrent-weight window: entry (k, q) is W(128 + k, q) + r(k, q). -/
theorem blk6 (c : Dev nD) (t : Fin cfg0.N) (k : Fin 128) (q : Fin 512) :
    (iblk m c 6 t : FVec Ideal S128x512 .bf16) (ValueIdx.ix2 k q)
      = aW m c (wBot k q) + aR m c (ValueIdx.ix2 k q) := by
  obtain ⟨h0, h1⟩ := idx_w6 t
  unfold iblk
  rw [View.read_apply]
  show (V m c main_v4 : S128x512.Idx → Ideal .bf16) _ = _
  rw [V_wh]
  have hi : ((cfg0.win 6).blk t).view.emb (ValueIdx.ix2 k q) = (ValueIdx.ix2 k q : S128x512.Idx) := by
    funext a
    apply Fin.ext
    match a with
    | ⟨0, _⟩ => show win0_6.index t (0 : Fin 2) * 128 + 1 * k.val = k.val; rw [h0]; omega
    | ⟨1, _⟩ => show win0_6.index t (1 : Fin 2) * 512 + 1 * q.val = q.val; rw [h1]; omega
  rw [hi]
  show (extractStridedSlice S128x512 ![128, 0] (aW m c) slices_S256x512_S128x512_128_0 (ValueIdx.ix2 k q) : EReal) + aR m c (ValueIdx.ix2 k q) = _
  congr 1
  exact extractStridedSlice_apply ![128, 0] _ slices_S256x512_S128x512_128_0 _ (wBot k q) (fun a => match a with
    | ⟨0, _⟩ => by show k.val + 128 = 128 + k.val; omega
    | ⟨1, _⟩ => by show q.val = 0 + q.val; omega)

/-- The bias window: entry (0, q) is b(q). -/
theorem blk7 (c : Dev nD) (t : Fin cfg0.N) (q : Fin 512) :
    (iblk m c 7 t : FVec Ideal S1x512 .f32) (ValueIdx.ix2 (0 : Fin 1) q) = aB m c (ValueIdx.ix1 q) := by
  obtain ⟨h0, h1⟩ := idx_w7 t
  unfold iblk
  rw [View.read_apply]
  show (V m c main_v5 : S1x512.Idx → Ideal .f32) _ = _
  rw [V_b]
  refine (shapeCast_apply _ shapeCasts_S512_S1x512 _ (ValueIdx.ix1 q) ?_)
  rw [Shape.rowMajor_val_one, Shape.rowMajor_val_two]
  show q.val = (win0_7.index t (0 : Fin 2) * 1 + 1 * 0) * 512 + (win0_7.index t (1 : Fin 2) * 512 + 1 * q.val)
  rw [h0, h1]; omega

end Cert.KernelIdeal.Hand

end
-- ==== Proof.KValue.lean ====
/-
  From blocks to whole arrays.  Point t of the 128-point grid reads rows 1024·t … 1024·t + 1023 of x, h, c, n, m and the
  (fixed) weight and bias blocks, and writes the same rows of the four results.  What it writes is therefore block t
  of ONE function of the whole argument arrays — the cell applied to the gate array in its folded spelling — and
  since the 128 blocks cover all 131072 rows, each result array ends as that function.
-/
import proofs.«138445_j86500641341529_1_alg».proof.Proof.Gen.KernelIdeal.Value
import proofs.«138445_j86500641341529_1_alg».proof.Proof.KPay
import proofs.«138445_j86500641341529_1_alg».proof.Proof.KCell
import proofs.«138445_j86500641341529_1_alg».proof.Proof.KWin

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Slstm

variable (m : (ℓ : Loc nD τ sig) → Buf (Elt Ideal) ℓ) (ρ : Dev nD → PrngReg)

theorem hz : (![0, 0] : Fin 2 → Nat) = fun _ => 0 := funext fun a => by fin_cases a <;> rfl

/-- The gate array of the whole batch, in the folded spelling, from the argument arrays. -/
abbrev gk (c : Dev nD) : Gates.Idx → EReal := gateFolded (aX m c) (aH m c) (aW m c) (aR m c) (aB m c)

/-- The folded spelling at row i, column q. -/
theorem gateFolded_at (X Hh : Rows.Idx → EReal) (W : WIn.Idx → EReal) (R : WRec.Idx → EReal) (Bv : Bias.Idx → EReal)
    (i : Fin 131072) (q : Fin 512) :
    gateFolded X Hh W R Bv (gc i q)
      = ((∑ k : Fin 128, X (rc i k) * W (wTop k q)) + ∑ k : Fin 128, Hh (rc i k) * (W (wBot k q) + R (ValueIdx.ix2 k q)))
          + Bv (ValueIdx.ix1 q) := rfl

/-- The gate block of point t is rows 1024·t … of the gate array. -/
theorem block_gates (c : Dev nD) (t : Fin cfg0.N) (p : Fin 1024) (q : Fin 512) :
    k0_pay2 (F := Ideal) (iblk m c 0 t) (iblk m c 1 t) (iblk m c 5 t) (iblk m c 6 t) (iblk m c 7 t) (ValueIdx.ix2 p q)
      = gk m c (gc (row t p) q) := by
  refine (gate_block (iblk m c 0 t) (iblk m c 1 t) (iblk m c 5 t) (iblk m c 6 t) (iblk m c 7 t) p q).trans ?_
  refine Eq.trans ?_ (gateFolded_at (aX m c) (aH m c) (aW m c) (aR m c) (aB m c) (row t p) q).symm
  congr 1
  · congr 1
    · exact Finset.sum_congr rfl fun k _ => by rw [blk0 m c t p k, blk5 m c t k q]
    · exact Finset.sum_congr rfl fun k _ => by rw [blk1 m c t p k, blk6 m c t k q]
  · exact blk7 m c t q

/-! ## Output window 8: the new hidden state h -/

/-- Element (p, k) of point t's block of window 8 is element (1024·t + p, k) of the array. -/
theorem emb8 (t : Fin cfg0.N) (p : Fin 1024) (k : Fin 128) :
    ((cfg0.win 8).blk t).view.emb (ValueIdx.ix2 p k : S1024x128.Idx) = rc (row t p) k := by
  obtain ⟨h0, h1⟩ := idx_w8 t
  funext a
  apply Fin.ext
  match a with
  | ⟨0, _⟩ => show win0_8.index t (0 : Fin 2) * 1024 + 1 * p.val = t.val * 1024 + p.val; rw [h0]; omega
  | ⟨1, _⟩ => show win0_8.index t (1 : Fin 2) * 128 + 1 * k.val = k.val; rw [h1]; omega

/-- WHAT POINT t WRITES BACK is block t of the new hidden state h computed from the whole argument arrays. -/
theorem flushed8_eq (c : Dev nD) (t : Fin cfg0.N) :
    (dats m 0 c).flushed 8 t = ((cfg0.win 8).blk t).view.read (Elt Ideal) (arrH (gk m c) (aM m c) (aC m c) (aN m c)) := by
  rw [Value.flushed8]
  unfold out0_8
  rw [View.canon_unit_zero hz]
  simp only [View.ld_unit_zero (S := S1024x128) hz, View.ld_unit_zero (S := S128x512) hz, View.ld_unit_zero (S := S1x512) hz]
  refine funext fun (y : S1024x128.Idx) => ?_
  obtain ⟨p, k, rfl⟩ : ∃ (p : Fin 1024) (k : Fin 128), y = ValueIdx.ix2 p k := ⟨y 0, y 1, ValueIdx.eq_ix2 y⟩
  show k0_pay1 (F := Ideal) (k0_pay3 (F := Ideal) (iblk m c 0 t) (iblk m c 1 t) (iblk m c 5 t) (iblk m c 6 t) (iblk m c 7 t)) (k0_pay11 (F := Ideal) (iblk m c 0 t) (iblk m c 1 t) (iblk m c 2 t) (iblk m c 3 t) (iblk m c 4 t) (iblk m c 5 t) (iblk m c 6 t) (iblk m c 7 t)) (ValueIdx.ix2 p k)
      = (arrH (gk m c) (aM m c) (aC m c) (aN m c)) (((cfg0.win 8).blk t).view.emb (ValueIdx.ix2 p k : S1024x128.Idx))
  rw [emb8 t p k]
  refine (blockH (iblk m c 0 t) (iblk m c 1 t) (iblk m c 2 t) (iblk m c 3 t) (iblk m c 4 t) (iblk m c 5 t) (iblk m c 6 t) (iblk m c 7 t) p k).trans ?_
  dsimp only [gAt]
  rw [block_gates, block_gates, block_gates, block_gates, blk4, blk2, blk3]
  rfl

/-- An index of the array lies in point t's block iff each coordinate lies in the block's range on its axis. -/
theorem mem_blk8 (t : Fin cfg0.N) (i : S131072x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v6_0).slice (win0_8.rect t)).set ↔ _
  rw [View.set_slice_whole, Rect.mem_set_unit]
  exact Iff.rfl

/-- Every element of the array lies in some point's block: row r lies in the block of point r / 1024. -/
theorem cover8 (i : S131072x128.Idx) :
    ∃ t : Fin cfg0.N, (cfg0.win 8).flush t = true ∧ i ∈ ((cfg0.win 8).blk t).view.set := by
  have hN : cfg0.N = 128 := N_0
  have hi0 : (i 0).val < 131072 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨h0, h1⟩ := idx_w8 t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [h0]; omega
  | ⟨1, _⟩ => show win0_8.index t (1 : Fin 2) * 128 ≤ (i 1).val ∧ (i 1).val < win0_8.index t (1 : Fin 2) * 128 + 128; rw [h1]; omega

/-- THE ARRAY after the run is the new hidden state h of the whole argument arrays. -/
theorem final8 (c : Dev nD) : (dats m 0 c).arrAt 8 cfg0.N = (arrH (gk m c) (aM m c) (aC m c) (aN m c)) :=
  (dats m 0 c).arrAt_eq_of_cover 8 (arrH (gk m c) (aM m c) (aC m c) (aN m c)) (fun t _ => flushed8_eq m c t) cover8

/-! ## Output window 9: the new cell state c -/

/-- Element (p, k) of point t's block of window 9 is element (1024·t + p, k) of the array. -/
theorem emb9 (t : Fin cfg0.N) (p : Fin 1024) (k : Fin 128) :
    ((cfg0.win 9).blk t).view.emb (ValueIdx.ix2 p k : S1024x128.Idx) = rc (row t p) k := by
  obtain ⟨h0, h1⟩ := idx_w9 t
  funext a
  apply Fin.ext
  match a with
  | ⟨0, _⟩ => show win0_9.index t (0 : Fin 2) * 1024 + 1 * p.val = t.val * 1024 + p.val; rw [h0]; omega
  | ⟨1, _⟩ => show win0_9.index t (1 : Fin 2) * 128 + 1 * k.val = k.val; rw [h1]; omega

/-- WHAT POINT t WRITES BACK is block t of the new cell state c computed from the whole argument arrays. -/
theorem flushed9_eq (c : Dev nD) (t : Fin cfg0.N) :
    (dats m 0 c).flushed 9 t = ((cfg0.win 9).blk t).view.read (Elt Ideal) (arrC (gk m c) (aM m c) (aC m c)) := by
  rw [Value.flushed9]
  unfold out0_9
  rw [View.canon_unit_zero hz]
  simp only [View.ld_unit_zero (S := S1024x128) hz, View.ld_unit_zero (S := S128x512) hz, View.ld_unit_zero (S := S1x512) hz]
  refine funext fun (y : S1024x128.Idx) => ?_
  obtain ⟨p, k, rfl⟩ : ∃ (p : Fin 1024) (k : Fin 128), y = ValueIdx.ix2 p k := ⟨y 0, y 1, ValueIdx.eq_ix2 y⟩
  show k0_pay9 (F := Ideal) (iblk m c 0 t) (iblk m c 1 t) (iblk m c 2 t) (iblk m c 4 t) (iblk m c 5 t) (iblk m c 6 t) (iblk m c 7 t) (ValueIdx.ix2 p k)
      = (arrC (gk m c) (aM m c) (aC m c)) (((cfg0.win 9).blk t).view.emb (ValueIdx.ix2 p k : S1024x128.Idx))
  rw [emb9 t p k]
  refine (blockC (iblk m c 0 t) (iblk m c 1 t) (iblk m c 2 t) (iblk m c 4 t) (iblk m c 5 t) (iblk m c 6 t) (iblk m c 7 t) p k).trans ?_
  dsimp only [gAt]
  rw [block_gates, block_gates, block_gates, blk4, blk2]
  rfl

/-- An index of the array lies in point t's block iff each coordinate lies in the block's range on its axis. -/
theorem mem_blk9 (t : Fin cfg0.N) (i : S131072x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v6_1).slice (win0_9.rect t)).set ↔ _
  rw [View.set_slice_whole, Rect.mem_set_unit]
  exact Iff.rfl

/-- Every element of the array lies in some point's block: row r lies in the block of point r / 1024. -/
theorem cover9 (i : S131072x128.Idx) :
    ∃ t : Fin cfg0.N, (cfg0.win 9).flush t = true ∧ i ∈ ((cfg0.win 9).blk t).view.set := by
  have hN : cfg0.N = 128 := N_0
  have hi0 : (i 0).val < 131072 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨h0, h1⟩ := idx_w9 t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; rw [h0]; omega
  | ⟨1, _⟩ => show win0_9.index t (1 : Fin 2) * 128 ≤ (i 1).val ∧ (i 1).val < win0_9.index t (1 : Fin 2) * 128 + 128; rw [h1]; omega

/-- THE ARRAY after the run is the new cell state c of the whole argument arrays. -/
theorem final9 (c : Dev nD) : (dats m 0 c).arrAt 9 cfg0.N = (arrC (gk m c) (aM m c) (aC m c)) :=
  (dats m 0 c).arrAt_eq_of_cover 9 (arrC (gk m c) (aM m c) (aC m c)) (fun t _ => flushed9_eq m c t) cover9

/-! ## Output window 10: the new normaliser n -/

/-- Element (p, k) of point t's block of window 10 is element (1024·t + p, k) of the array. -/
theorem emb10 (t : Fin cfg0.N) (p : Fin 1024) (k : Fin 128) :
    ((cfg0.win 10).blk t).view.emb (ValueIdx.ix2 p k : S1024x128.Idx) = rc (row t p) k := by
  obtain ⟨h0, h1⟩ := idx_w10 t
  funext a
  apply Fin.ext
  match a with
  | ⟨0, _⟩ => show win0_10.index t (0 : Fin 2) * 1024 + 1 * p.val = t.val * 1024 + p.val; rw [h0]; omega
  | ⟨1, _⟩ => show win0_10.index t (1 : Fin 2) * 128 + 1 * k.val = k.val; rw [h1]; omega

/-- WHAT POINT t WRITES BACK is block t of the new normaliser n computed from the whole argument arrays. -/
theorem flushed10_eq (c : Dev nD) (t : Fin cfg0.N) :
    (dats m 0 c).flushed 10 t = ((cfg0.win 10).blk t).view.read (Elt Ideal) (arrN (gk m c) (aM m c) (aN m c)) := by
  rw [Value.flushed10]
  unfold out0_10
  rw [View.canon_unit_zero hz]
  simp only [View.ld_unit_zero (S := S1024x128) hz, View.ld_unit_zero (S := S128x512) hz, View.ld_unit_zero (S := S1x512) hz]
  refine funext fun (y : S1024x128.Idx) => ?_
  obtain ⟨p, k, rfl⟩ : ∃ (p : Fin 1024) (k : Fin 128), y = ValueIdx.ix2 p k := ⟨y 0, y 1, ValueIdx.eq_ix2 y⟩
  show k0_pay10 (F := Ideal) (iblk m c 0 t) (iblk m c 1 t) (iblk m c 3 t) (iblk m c 4 t) (iblk m c 5 t) (iblk m c 6 t) (iblk m c 7 t) (ValueIdx.ix2 p k)
      = (arrN (gk m c) (aM m c) (aN m c)) (((cfg0.win 10).blk t).view.emb (ValueIdx.ix2 p k : S1024x128.Idx))
  rw [emb10 t p k]
  refine (blockN (iblk m c 0 t) (iblk m c 1 t) (iblk m c 3 t) (iblk m c 4 t) (iblk m c 5 t) (iblk m c 6 t) (iblk m c 7 t) p k).trans ?_
  dsimp only [gAt]
  rw [block_gates, block_gates, blk4, blk3]
  rfl

/-- An index of the array lies in point t's block iff each coordinate lies in the block's range on its axis. -/
theorem mem_blk10 (t : Fin cfg0.N) (i : S131072x128.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v6_2).slice (win0_10.rect t)).set ↔ _
  rw [View.set_slice_whole, Rect.mem_set_unit]
  exact Iff.rfl

/-- Every element of the array lies in some point's block: row r lies in the block of point r / 1024. -/
theorem cover10 (i : S131072x128.Idx) :
    ∃ t : Fin cfg0.N, (cfg0.win 10).flush t = true ∧ i ∈ ((cfg0.win 10).blk t).view.set := by
  have hN : cfg0.N = 128 := N_0
  have hi0 : (i 0).val < 131072 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨h0, h1⟩ := idx_w10 t
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; rw [h0]; omega
  | ⟨1, _⟩ => show win0_10.index t (1 : Fin 2) * 128 ≤ (i 1).val ∧ (i 1).val < win0_10.index t (1 : Fin 2) * 128 + 128; rw [h1]; omega

/-- THE ARRAY after the run is the new normaliser n of the whole argument arrays. -/
theorem final10 (c : Dev nD) : (dats m 0 c).arrAt 10 cfg0.N = (arrN (gk m c) (aM m c) (aN m c)) :=
  (dats m 0 c).arrAt_eq_of_cover 10 (arrN (gk m c) (aM m c) (aN m c)) (fun t _ => flushed10_eq m c t) cover10

/-! ## Output window 11: the new stabiliser m -/

/-- Element (p, k) of point t's block of window 11 is element (1024·t + p, k) of the array. -/
theorem emb11 (t : Fin cfg0.N) (p : Fin 1024) (k : Fin 128) :
    ((cfg0.win 11).blk t).view.emb (ValueIdx.ix2 p k : S1024x128.Idx) = rc (row t p) k := by
  obtain ⟨h0, h1⟩ := idx_w11 t
  funext a
  apply Fin.ext
  match a with
  | ⟨0, _⟩ => show win0_11.index t (0 : Fin 2) * 1024 + 1 * p.val = t.val * 1024 + p.val; rw [h0]; omega
  | ⟨1, _⟩ => show win0_11.index t (1 : Fin 2) * 128 + 1 * k.val = k.val; rw [h1]; omega

/-- WHAT POINT t WRITES BACK is block t of the new stabiliser m computed from the whole argument arrays. -/
theorem flushed11_eq (c : Dev nD) (t : Fin cfg0.N) :
    (dats m 0 c).flushed 11 t = ((cfg0.win 11).blk t).view.read (Elt Ideal) (arrM (gk m c) (aM m c)) := by
  rw [Value.flushed11]
  unfold out0_11
  rw [View.canon_unit_zero hz]
  simp only [View.ld_unit_zero (S := S1024x128) hz, View.ld_unit_zero (S := S128x512) hz, View.ld_unit_zero (S := S1x512) hz]
  refine funext fun (y : S1024x128.Idx) => ?_
  obtain ⟨p, k, rfl⟩ : ∃ (p : Fin 1024) (k : Fin 128), y = ValueIdx.ix2 p k := ⟨y 0, y 1, ValueIdx.eq_ix2 y⟩
  show k0_pay6 (F := Ideal) (iblk m c 0 t) (iblk m c 1 t) (iblk m c 4 t) (iblk m c 5 t) (iblk m c 6 t) (iblk m c 7 t) (ValueIdx.ix2 p k)
      = (arrM (gk m c) (aM m c)) (((cfg0.win 11).blk t).view.emb (ValueIdx.ix2 p k : S1024x128.Idx))
  rw [emb11 t p k]
  refine (blockM (iblk m c 0 t) (iblk m c 1 t) (iblk m c 4 t) (iblk m c 5 t) (iblk m c 6 t) (iblk m c 7 t) p k).trans ?_
  dsimp only [gAt]
  rw [block_gates, block_gates, blk4]
  rfl

/-- An index of the array lies in point t's block iff each coordinate lies in the block's range on its axis. -/
theorem mem_blk11 (t : Fin cfg0.N) (i : S131072x128.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v6_3).slice (win0_11.rect t)).set ↔ _
  rw [View.set_slice_whole, Rect.mem_set_unit]
  exact Iff.rfl

/-- Every element of the array lies in some point's block: row r lies in the block of point r / 1024. -/
theorem cover11 (i : S131072x128.Idx) :
    ∃ t : Fin cfg0.N, (cfg0.win 11).flush t = true ∧ i ∈ ((cfg0.win 11).blk t).view.set := by
  have hN : cfg0.N = 128 := N_0
  have hi0 : (i 0).val < 131072 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨h0, h1⟩ := idx_w11 t
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; rw [h0]; omega
  | ⟨1, _⟩ => show win0_11.index t (1 : Fin 2) * 128 ≤ (i 1).val ∧ (i 1).val < win0_11.index t (1 : Fin 2) * 128 + 128; rw [h1]; omega

/-- THE ARRAY after the run is the new stabiliser m of the whole argument arrays. -/
theorem final11 (c : Dev nD) : (dats m 0 c).arrAt 11 cfg0.N = (arrM (gk m c) (aM m c)) :=
  (dats m 0 c).arrAt_eq_of_cover 11 (arrM (gk m c) (aM m c)) (fun t _ => flushed11_eq m c t) cover11

/-! ## The run, read -/

/-- Every weakly fair execution of the kernel's program ends with the four results at the cell of the folded gate
    array, and the arguments unchanged. -/
theorem run : θ_run defs (onTc (τ := τ) (main (F := Ideal))) ⟨m, fun _ => 0, ρ⟩ fun r => ∀ c : Dev nD,
      r.2.mem ((c : Thread nD τ).loc main_v6_0) = (arrH (gk m c) (aM m c) (aC m c) (aN m c))
      ∧ r.2.mem ((c : Thread nD τ).loc main_v6_1) = (arrC (gk m c) (aM m c) (aC m c))
      ∧ r.2.mem ((c : Thread nD τ).loc main_v6_2) = (arrN (gk m c) (aM m c) (aN m c))
      ∧ r.2.mem ((c : Thread nD τ).loc main_v6_3) = (arrM (gk m c) (aM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c),
      (h c).2.2.1.trans (final10 m c), (h c).2.2.2.1.trans (final11 m c), (h c).2.2.2.2⟩)
    (Cert.KernelIdeal.Value.run_blocks m ρ)

end Cert.KernelIdeal.Hand

end
-- ==== Proof.RefRead.lean ====
/-
  The reference program's four results, read index by index, are the cell of the gate pre-activations in their
  joined spelling: the joined row (x, h) contracted against W, plus h contracted against r, plus the bias, then the
  cell's operations element by element.  The logistic function arrives spelled 1 / (1 + exp (−g)) with the constant 1
  given by its bit pattern; that spelling is the one-operation logistic.
-/
import proofs.«138445_j86500641341529_1_alg».proof.Proof.Gen.ReferenceIdeal.Read
import proofs.«138445_j86500641341529_1_alg».proof.Proof.Cell
import Idealize.ShloMosaic.Lib.IdealHost

noncomputable section

open Idealize.ShloMosaic

namespace Cert.ReferenceIdeal.Hand

open Cert.ReferenceIdeal Cert.ReferenceIdeal.Gen Cert.ReferenceIdeal.Read Cert.Slstm

variable (x0 x1 x2 x3 x4 : Rows.Idx → EReal) (x5 : WIn.Idx → EReal) (x6 : WRec.Idx → EReal) (x7 : Bias.Idx → EReal)

/-- Position k of row i of the concatenation is x(i, k) for k < 128 and h(i, k − 128) from there on. -/
theorem joined_apply (i : S131072x512.Idx) (k : Fin 256) :
    val_main_v0 (F := Ideal) x0 x1 (lidx_main_v1 i k) = joined x0 x1 (ValueIdx.ix2 (i 0) k) := by
  unfold val_main_v0 joined
  by_cases h : ((ValueIdx.ix2 (i 0) k : Joined.Idx) 1).val < 128
  · rw [dif_pos h]
    exact concatenate_pair_apply_left 1 x0 x1 concatenates_S131072x128_S131072x128_S131072x256_d1 (lidx_main_v1 i k) rfl _
      (fun b => match b with | ⟨0, _⟩ => rfl | ⟨1, _⟩ => rfl)
  · rw [dif_neg h]
    have hk : ¬ k.val < 128 := h
    refine concatenate_pair_apply_right 1 x0 x1 concatenates_S131072x128_S131072x128_S131072x256_d1 (lidx_main_v1 i k) rfl rfl _
      (fun b => match b with | ⟨0, _⟩ => fun _ => rfl | ⟨1, _⟩ => fun hne => absurd rfl hne) ?_
    show k.val - 128 + 128 = k.val
    omega

/-- The reference's gate array is the joined spelling. -/
theorem gates_eq : val_main_v6 (F := Ideal) x0 x1 x5 x6 x7 = gateJoined x0 x1 x5 x6 x7 := by
  funext i
  rw [val_main_v6_apply, val_main_v3_apply, val_main_v1_apply, val_main_v2_apply, val_main_v5_apply, val_main_v4_apply]
  unfold gateJoined
  show ((∑ k : Fin 256, _ * _) + (∑ k : Fin 128, _ * _)) + _ = _
  congr 1
  · congr 1
    · refine Finset.sum_congr rfl fun k _ => ?_
      rw [joined_apply]
      exact congrArg (fun e => joined x0 x1 (ValueIdx.ix2 (i 0) k) * x5 e)
        (funext fun a => match a with | ⟨0, _⟩ => rfl | ⟨1, _⟩ => rfl)
    · refine Finset.sum_congr rfl fun k _ => ?_
      have el : lidx_main_v2 i k = rc (i 0) k := funext fun a => match a with | ⟨0, _⟩ => rfl | ⟨1, _⟩ => rfl
      have er : ridx_main_v2 i k = ValueIdx.ix2 k (i 1) := funext fun a => match a with | ⟨0, _⟩ => rfl | ⟨1, _⟩ => rfl
      exact congrArg₂ (fun a b => x1 a * x6 b) el er
  · exact congrArg x7 (funext fun a => match a with | ⟨0, _⟩ => rfl)

/-! The four column slices of the gate array, at element e. -/
theorem colI (e : S131072x128.Idx) : idx_main_v7 e = gc (e 0) (gateCol 0 (by omega) (e 1)) :=
  funext fun a => match a with | ⟨0, _⟩ => rfl | ⟨1, _⟩ => rfl
theorem colF (e : S131072x128.Idx) : idx_main_v8 e = gc (e 0) (gateCol 128 (by omega) (e 1)) :=
  funext fun a => match a with | ⟨0, _⟩ => rfl | ⟨1, _⟩ => Fin.ext (by show 128 + (e 1).val = (e 1).val + 128; omega)
theorem colZ (e : S131072x128.Idx) : idx_main_v9 e = gc (e 0) (gateCol 256 (by omega) (e 1)) :=
  funext fun a => match a with | ⟨0, _⟩ => rfl | ⟨1, _⟩ => Fin.ext (by show 256 + (e 1).val = (e 1).val + 256; omega)
theorem colO (e : S131072x128.Idx) : idx_main_v10 e = gc (e 0) (gateCol 384 (by omega) (e 1)) :=
  funext fun a => match a with | ⟨0, _⟩ => rfl | ⟨1, _⟩ => Fin.ext (by show 384 + (e 1).val = (e 1).val + 384; omega)

/-- The host's spelled logistic of the forget gate, at element e. -/
theorem sigF (e : S131072x128.Idx) :
    val_main_v17 (F := Ideal) x0 x1 x5 x6 x7 e = FloatOps.logistic (gF (gateJoined x0 x1 x5 x6 x7) (e 0) (e 1)) := by
  rw [val_main_v17_apply, val_main_v16_apply, val_main_cst_0_apply, val_main_v15_apply, val_main_v14_apply, val_main_cst_apply,
    val_main_v13_apply, val_main_v12_apply, val_main_v8_apply, gates_eq, colF]
  exact logistic_spelled _ _ Ideal.ofBits_one_f32

/-- The host's spelled logistic of the output gate, at element e. -/
theorem sigO (e : S131072x128.Idx) :
    val_main_v24 (F := Ideal) x0 x1 x5 x6 x7 e = FloatOps.logistic (gO (gateJoined x0 x1 x5 x6 x7) (e 0) (e 1)) := by
  rw [val_main_v24_apply, val_main_v23_apply, val_main_cst_2_apply, val_main_v22_apply, val_main_v21_apply, val_main_cst_1_apply,
    val_main_v20_apply, val_main_v19_apply, val_main_v10_apply, gates_eq, colO]
  exact logistic_spelled _ _ Ideal.ofBits_one_f32

/-- exp of the input gate, at element e. -/
theorem expI (e : S131072x128.Idx) :
    val_main_v11 (F := Ideal) x0 x1 x5 x6 x7 e = FloatOps.exp (gI (gateJoined x0 x1 x5 x6 x7) (e 0) (e 1)) := by
  rw [val_main_v11_apply, val_main_v7_apply, gates_eq, colI]
  rfl

/-- tanh of the cell-input gate, at element e. -/
theorem tanhZ (e : S131072x128.Idx) :
    val_main_v18 (F := Ideal) x0 x1 x5 x6 x7 e = FloatOps.tanh (gZ (gateJoined x0 x1 x5 x6 x7) (e 0) (e 1)) := by
  rw [val_main_v18_apply, val_main_v9_apply, gates_eq, colZ]
  rfl

/-- The reference's new stabiliser m. -/
theorem m_eq : val_main_v28 (F := Ideal) x0 x1 x4 x5 x6 x7 = arrM (gateJoined x0 x1 x5 x6 x7) x4 := by
  funext e
  rw [val_main_v28_apply, val_main_v26_apply, val_main_v25_apply, val_main_v27_apply, sigF, expI]
  rfl

/-- The stabilised input weight, at element e. -/
theorem inW_eq (e : S131072x128.Idx) :
    val_main_v31 (F := Ideal) x0 x1 x4 x5 x6 x7 e
      = inW (gI (gateJoined x0 x1 x5 x6 x7) (e 0) (e 1)) (gF (gateJoined x0 x1 x5 x6 x7) (e 0) (e 1)) (x4 e) := by
  rw [val_main_v31_apply, val_main_v30_apply, val_main_v29_apply, expI, m_eq]
  rfl

/-- The stabilised forget weight, at element e. -/
theorem fgW_eq (e : S131072x128.Idx) :
    val_main_v35 (F := Ideal) x0 x1 x4 x5 x6 x7 e
      = fgW (gI (gateJoined x0 x1 x5 x6 x7) (e 0) (e 1)) (gF (gateJoined x0 x1 x5 x6 x7) (e 0) (e 1)) (x4 e) := by
  rw [val_main_v35_apply, val_main_v34_apply, val_main_v33_apply, val_main_v32_apply, sigF, m_eq]
  rfl

/-- The reference's new cell state c. -/
theorem c_eq : val_main_v38 (F := Ideal) x0 x1 x2 x4 x5 x6 x7 = arrC (gateJoined x0 x1 x5 x6 x7) x4 x2 := by
  funext e
  rw [val_main_v38_apply, val_main_v36_apply, val_main_v37_apply, fgW_eq, inW_eq, tanhZ]
  rfl

/-- The reference's new normaliser n. -/
theorem n_eq : val_main_v40 (F := Ideal) x0 x1 x3 x4 x5 x6 x7 = arrN (gateJoined x0 x1 x5 x6 x7) x4 x3 := by
  funext e
  rw [val_main_v40_apply, val_main_v39_apply, fgW_eq, inW_eq]
  rfl

/-- The reference's new hidden state h. -/
theorem h_eq : val_main_v43 (F := Ideal) x0 x1 x2 x3 x4 x5 x6 x7 = arrH (gateJoined x0 x1 x5 x6 x7) x4 x2 x3 := by
  funext e
  rw [val_main_v43_apply, sigO, val_main_v42_apply, val_main_v41_apply, c_eq, n_eq]
  rfl

end Cert.ReferenceIdeal.Hand

end
-- ==== Proof.Finite.lean ====
/-
  What the precondition gives.  It says, of each of the eight argument arrays, that every entry's absolute value is
  below +∞.  On the extended reals that is exactly: every entry is a real number.  The law that joins the two programs
  needs this of h, of W and of r (the three arrays whose entries meet in h·(W + r) = h·W + h·r).
-/
import proofs.«138445_j86500641341529_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

open Idealize.ShloMosaic

namespace Cert.Pre_finite_inputs.Hand

open Cert.Pre_finite_inputs

instance : Subsingleton S_.Idx := ⟨fun a b => funext fun d => d.elim0⟩

/-- An extended real whose absolute value max(x, −x) lies below +∞ is a real number. -/
theorem real_of_abs_lt_inf (x : Ideal .f32)
    (h : FloatOps.cmpf .olt (FloatOps.hostAbsf x) (FloatOps.ofBits (F := Ideal) .f32 0x7F800000#32) = 1#1) :
    ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe a => exact ⟨a, rfl⟩
  | top => simp at h

/-- One conjunct of the precondition, for an array of any shape: if the all-reduction of |a| < +∞ is 1 then every
    entry of a is a real number. -/
theorem reals_of_all {s : Shape} {axes : List (Fin s.rank)} (a : FVec Ideal s .f32) (hb : (⟨0, ![]⟩ : Shape).BroadcastsInDim s ![])
    (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ValueIdx.ix0 = 1#1) (i : s.Idx) :
    ∃ r : ℝ, a i = (r : EReal) :=
  real_of_abs_lt_inf (a i) (Host.reduce_andi_all _ _ hr hu ValueIdx.ix0 e i)

/-- THE PRECONDITION'S CONTENT used by the proof: h, W and r hold real numbers. -/
theorem reals_of_pre [Facts] (a0 a1 a2 a3 a4 : FVec Ideal S131072x128 .f32) (a5 : FVec Ideal S256x512 .f32)
    (a6 : FVec Ideal S128x512 .f32) (a7 : FVec Ideal S512 .f32)
    (h : fn (F := Ideal) a0 a1 a2 a3 a4 a5 a6 a7 = fun _ => 1#1) :
    (∀ e, ∃ r : ℝ, a1 e = (r : EReal)) ∧ (∀ e, ∃ r : ℝ, a5 e = (r : EReal)) ∧ (∀ e, ∃ r : ℝ, a6 e = (r : EReal)) := by
  have h0 := congrFun h ValueIdx.ix0
  dsimp only [fn, fn_part1, fn_part2] at h0
  obtain ⟨h33, -⟩ := IntOp.andi_eq_one.mp h0
  obtain ⟨h28, h32⟩ := IntOp.andi_eq_one.mp h33
  obtain ⟨h23, h27⟩ := IntOp.andi_eq_one.mp h28
  obtain ⟨h18, -⟩ := IntOp.andi_eq_one.mp h23
  obtain ⟨h13, -⟩ := IntOp.andi_eq_one.mp h18
  obtain ⟨h8, -⟩ := IntOp.andi_eq_one.mp h13
  obtain ⟨-, h7⟩ := IntOp.andi_eq_one.mp h8
  exact ⟨fun e => reals_of_all a1 _ _ _ h7 e, fun e => reals_of_all a5 _ _ _ h27 e, fun e => reals_of_all a6 _ _ _ h32 e⟩

end Cert.Pre_finite_inputs.Hand

end
-- ==== Proof.Claims.lean ====
/-
  The five claims.  The three frames are the generated frame runs (the reference's is its generated run with the
  results dropped).  The idealisation rewrote nothing, so there is nothing to preserve.  For the value claim: the
  kernel's run ends with its four results at the cell of the gate array in the folded spelling; the reference's run
  ends with its four results at the same cell of the gate array in the joined spelling; the arguments agree; and
  under the precondition h, W and r hold real numbers, where the two spellings are one array.
-/
import proofs.«138445_j86500641341529_1_alg».proof.Defs
import proofs.«138445_j86500641341529_1_alg».proof.Proof.Gen.Kernel.Frame
import proofs.«138445_j86500641341529_1_alg».proof.Proof.Gen.KernelIdeal.Frame
import proofs.«138445_j86500641341529_1_alg».proof.Proof.Gen.ReferenceIdeal.Run
import proofs.«138445_j86500641341529_1_alg».proof.Proof.Gen.ReferenceIdeal.Read
import proofs.«138445_j86500641341529_1_alg».proof.Proof.Gen.Pre_finite_inputs
import proofs.«138445_j86500641341529_1_alg».proof.Proof.KValue
import proofs.«138445_j86500641341529_1_alg».proof.Proof.RefRead
import proofs.«138445_j86500641341529_1_alg».proof.Proof.Finite

noncomputable section

open Idealize.ShloMosaic Idealize.ShloMosaic.TcCoe Idealize.SL.Sem

namespace Cert.Proof.Claims

open Cert.Slstm Cert.KernelIdeal.Hand

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with the same four arrays: the cell of one gate array, spelled two ways. -/
theorem algebraic : Cert.algebraic_KernelIdeal_ReferenceIdeal := by
  intro m ρ m' ρ' hpre hagree
  refine ⟨fun c => arrH (gk m c) (aM m c) (aC m c) (aN m c), fun c => arrC (gk m c) (aM m c) (aC m c),
    fun c => arrN (gk m c) (aM m c) (aN m c), fun c => arrM (gk m c) (aM m c), Cert.KernelIdeal.Hand.run m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  obtain ⟨hH, hW, hR⟩ := Cert.Pre_finite_inputs.Hand.reals_of_pre _ _ _ _ _ _ _ _ (hpre c)
  have law : gateJoined (aX m c) (aH m c) (aW m c) (aR m c) (aB m c) = gk m c :=
    gateJoined_eq_gateFolded (aX m c) (aH m c) (aW m c) (aR m c) (aB m c) hH hW hR
  refine ⟨(h c).1.trans ?_, (h c).2.1.trans ?_, (h c).2.2.1.trans ?_, (h c).2.2.2.1.trans ?_, (h c).2.2.2.2⟩
  · rw [Cert.ReferenceIdeal.Read.val_main_v43_eq, e0, e1, e2, e3, e4, e5, e6, e7]
    exact (Cert.ReferenceIdeal.Hand.h_eq (aX m c) (aH m c) (aC m c) (aN m c) (aM m c) (aW m c) (aR m c) (aB m c)).trans (by rw [law])
  · rw [Cert.ReferenceIdeal.Read.val_main_v38_eq, e0, e1, e2, e4, e5, e6, e7]
    exact (Cert.ReferenceIdeal.Hand.c_eq (aX m c) (aH m c) (aC m c) (aM m c) (aW m c) (aR m c) (aB m c)).trans (by rw [law])
  · rw [Cert.ReferenceIdeal.Read.val_main_v40_eq, e0, e1, e3, e4, e5, e6, e7]
    exact (Cert.ReferenceIdeal.Hand.n_eq (aX m c) (aH m c) (aN m c) (aM m c) (aW m c) (aR m c) (aB m c)).trans (by rw [law])
  · rw [Cert.ReferenceIdeal.Read.val_main_v28_eq, e0, e1, e4, e5, e6, e7]
    exact (Cert.ReferenceIdeal.Hand.m_eq (aX m c) (aH m c) (aM m c) (aW m c) (aR m c) (aB m c)).trans (by rw [law])

end Cert.Proof.Claims

end
-- ==== Proof.lean ====
/-
  One step of an sLSTM cell over a batch of 131072 rows: a blocked kernel against its plain array reference, equal as
  extended reals under the precondition that every input entry is finite.

  Both programs form four gate pre-activations per element from x, h, W, r and b, and then apply the same cell
  element by element (the stabilised exponential gating: new m, c, n and h).  They differ in two places only.
  (1) The kernel adds r to the lower half of W once, before its launch, and contracts h against the sum; the
  reference contracts the joined row (x, h) against W and adds h·r separately.  These agree because a sum over the
  256 joined positions is the sum of its halves and because h·(w + r) = h·w + h·r on real numbers — the one place
  finiteness is used (of h, W and r).  (2) The kernel's logistic is one operation, the reference's is spelled
  1 / (1 + exp (−g)); on the extended reals these are the same function.  The kernel's grid of 128 points covers the
  batch 1024 rows at a time, so its four result arrays are the cell of the whole argument arrays.

  Modules: Cell (the mathematics, no program), RefRead (the reference's results are the cell of the joined gates),
  KPay and KCell (the kernel body's gate block and its four stored blocks), KWin (what each window's block holds),
  KValue (from blocks to whole arrays, and the kernel's run), Finite (the precondition's content), Claims (the five
  claims).
-/
import proofs.«138445_j86500641341529_1_alg».proof.Defs
import proofs.«138445_j86500641341529_1_alg».proof.Proof.Gen.Kernel
import proofs.«138445_j86500641341529_1_alg».proof.Proof.Gen.Kernel.Skeleton
import proofs.«138445_j86500641341529_1_alg».proof.Proof.Gen.Kernel.Launch
import proofs.«138445_j86500641341529_1_alg».proof.Proof.Gen.Kernel.Points
import proofs.«138445_j86500641341529_1_alg».proof.Proof.Gen.Kernel.Frame
import proofs.«138445_j86500641341529_1_alg».proof.Proof.Gen.KernelIdeal
import proofs.«138445_j86500641341529_1_alg».proof.Proof.Gen.KernelIdeal.Skeleton
import proofs.«138445_j86500641341529_1_alg».proof.Proof.Gen.KernelIdeal.Launch
import proofs.«138445_j86500641341529_1_alg».proof.Proof.Gen.KernelIdeal.Points
import proofs.«138445_j86500641341529_1_alg».proof.Proof.Gen.KernelIdeal.Frame
import proofs.«138445_j86500641341529_1_alg».proof.Proof.Gen.ReferenceIdeal
import proofs.«138445_j86500641341529_1_alg».proof.Proof.Gen.Pre_finite_inputs
import proofs.«138445_j86500641341529_1_alg».proof.Proof.Gen.KernelIdeal.Value
import proofs.«138445_j86500641341529_1_alg».proof.Proof.Gen.ReferenceIdeal.Run
import proofs.«138445_j86500641341529_1_alg».proof.Proof.Gen.ReferenceIdeal.Read
import proofs.«138445_j86500641341529_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
